-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v3)) (v1 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_v4) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v10) = v0 c
          ∧ r.2.mem ((c.tc : Thread Cert.ReferenceIdeal.nD Cert.ReferenceIdeal.τ).loc Cert.ReferenceIdeal.main_v12) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x16x512x256 : Shape := ⟨4, ![8, 16, 512, 256]⟩
abbrev S_ : Shape := ⟨0, ![]⟩

class Facts : Prop where
  bcast_S_S8x16x512x256 : S_.BroadcastsInDim S8x16x512x256 (![] : Fin 0 → Fin S8x16x512x256.rank)
  reducesTo_S8x16x512x256_S_d0_1_2_3 : S8x16x512x256.ReducesTo [0, 1, 2, 3] S_
  h_S_ : 0 < S_.numel

variable [Facts]

def fn {F : FTy → Type} [FloatOps F] (main_arg0 : FVec F S8x16x512x256 .f32) (main_arg1 : FVec F S8x16x512x256 .f32) : IVec S_ 1 :=
  let main_v0 : FVec F S8x16x512x256 .f32 := Host.absf main_arg0
  let main_cst : FVec F S_ .f32 := constant S_ .f32 0x7F800000#32
  let main_v1 : FVec F S8x16x512x256 .f32 := broadcastInDim S8x16x512x256 ![] bcast_S_S8x16x512x256 main_cst
  let main_v2 : IVec S8x16x512x256 1 := cmpf .olt main_v0 main_v1
  let main_c : IVec S_ 1 := constantI S_ 1 1#1
  let main_v3 : IVec S_ 1 := (fun x v => Host.reduce IntOp.andi x v reducesTo_S8x16x512x256_S_d0_1_2_3 h_S_) main_v2 main_c
  let main_v4 : FVec F S8x16x512x256 .f32 := Host.absf main_arg1
  let main_cst_0 : FVec F S_ .f32 := constant S_ .f32 0x7F800000#32
  let main_v5 : FVec F S8x16x512x256 .f32 := broadcastInDim S8x16x512x256 ![] bcast_S_S8x16x512x256 main_cst_0
  let main_v6 : IVec S8x16x512x256 1 := cmpf .olt main_v4 main_v5
  let main_c_1 : IVec S_ 1 := constantI S_ 1 1#1
  let main_v7 : IVec S_ 1 := (fun x v => Host.reduce IntOp.andi x v reducesTo_S8x16x512x256_S_d0_1_2_3 h_S_) main_v6 main_c_1
  let main_v8 : IVec S_ 1 := andi main_v3 main_v7
  main_v8
-- ==== Kernel.lean ====
abbrev S8x16x512x256 : Shape := ⟨4, ![8, 16, 512, 256]⟩
abbrev S128x512x256 : Shape := ⟨3, ![128, 512, 256]⟩
abbrev S8x512x256 : Shape := ⟨3, ![8, 512, 256]⟩
abbrev S8x256 : Shape := ⟨2, ![8, 256]⟩
abbrev S8x1x256 : Shape := ⟨3, ![8, 1, 256]⟩
abbrev S8x512 : Shape := ⟨2, ![8, 512]⟩
abbrev S8x512x1 : Shape := ⟨3, ![8, 512, 1]⟩

abbrev nBuf : Space → Nat
  | .hbm => 8
  | .vmem => 8
  | .smem => 0
  | _ => 0

abbrev bufTy : (tb : Table) → Fin (tcTables nBuf tb) → BufTy
  | .hbm, ⟨0, _⟩ => ⟨S8x16x512x256, .f32⟩
  | .hbm, ⟨1, _⟩ => ⟨S8x16x512x256, .f32⟩
  | .hbm, ⟨2, _⟩ => ⟨S128x512x256, .f32⟩
  | .hbm, ⟨3, _⟩ => ⟨S128x512x256, .f32⟩
  | .hbm, ⟨4, _⟩ => ⟨S128x512x256, .f32⟩
  | .hbm, ⟨5, _⟩ => ⟨S128x512x256, .f32⟩
  | .hbm, ⟨6, _⟩ => ⟨S8x16x512x256, .f32⟩
  | .hbm, ⟨7, _⟩ => ⟨S8x16x512x256, .f32⟩
  | .local _ .vmem, ⟨0, _⟩ => ⟨S8x512x256, .f32⟩
  | .local _ .vmem, ⟨1, _⟩ => ⟨S8x512x256, .f32⟩
  | .local _ .vmem, ⟨2, _⟩ => ⟨S8x512x256, .f32⟩
  | .local _ .vmem, ⟨3, _⟩ => ⟨S8x512x256, .f32⟩
  | .local _ .vmem, ⟨4, _⟩ => ⟨S8x512x256, .f32⟩
  | .local _ .vmem, ⟨5, _⟩ => ⟨S8x512x256, .f32⟩
  | .local _ .vmem, ⟨6, _⟩ => ⟨S8x512x256, .f32⟩
  | .local _ .vmem, ⟨7, _⟩ => ⟨S8x512x256, .f32⟩
  | _, _ => ⟨S8x16x512x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2_0 : Ref sig .tc := ⟨.hbm, 4, rfl⟩
abbrev main_v2_1 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S8x512x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x512x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x512x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x512x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  shapeCasts_S8x16x512x256_S128x512x256 : S8x16x512x256.ShapeCasts S128x512x256
  inb_S8x512x256_S8x512x256_0_0_0 : ∀ a, (![0, 0, 0] : Fin 3 → Nat) a + S8x512x256.size a ≤ S8x512x256.size a
  h_S8x512x256 : 0 < S8x512x256.numel
  shapeCasts_S8x512x256_S8x512x256 : S8x512x256.ShapeCasts S8x512x256
  reduces_S8x512x256_S8x256 : S8x512x256.Reduces [1] S8x256
  shapeCasts_S8x256_S8x1x256 : S8x256.ShapeCasts S8x1x256
  broadcasts_S8x1x256_S8x512x256 : S8x1x256.Broadcasts S8x512x256
  reduces_S8x512x256_S8x512 : S8x512x256.Reduces [2] S8x512
  shapeCasts_S8x512_S8x512x1 : S8x512.ShapeCasts S8x512x1
  natLt_1_32 : 1 < 32
  broadcasts_S8x512x1_S8x512x256 : S8x512x1.Broadcasts S8x512x256
  shapeCasts_S128x512x256_S8x16x512x256 : S128x512x256.ShapeCasts S8x16x512x256
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x512x256.size a ≤ S128x512x256.size a
  hwx0_0 : ∀ i : grid0.Coords, EltTy.bits .f32 = 32 ∨ (Rect.block (s := S128x512x256) S8x512x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8x512x256.size a ≤ S128x512x256.size a
  hwx0_1 : ∀ i : grid0.Coords, EltTy.bits .f32 = 32 ∨ (Rect.block (s := S128x512x256) S8x512x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8x512x256.size a ≤ S128x512x256.size a
  hwx0_2 : ∀ i : grid0.Coords, EltTy.bits .f32 = 32 ∨ (Rect.block (s := S128x512x256) S8x512x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S8x512x256.size a ≤ S128x512x256.size a
  hwx0_3 : ∀ i : grid0.Coords, EltTy.bits .f32 = 32 ∨ (Rect.block (s := S128x512x256) S8x512x256.size (cc0_transform_3 i) (hinb0_3 i)).WholeWords (EltTy.packing .f32)

variable [Facts₀]

abbrev win0_0 : Pipeline.Window sig grid0 :=
  Pipeline.Window.ofSpec (Memref.whole main_v0) S8x512x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S8x512x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2_0) S8x512x256.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v2_1) S8x512x256.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S8x16x512x256 : Shape := ⟨4, ![8, 16, 512, 256]⟩
abbrev S8x16x512x512 : Shape := ⟨4, ![8, 16, 512, 512]⟩
abbrev S_ : Shape := ⟨0, ![]⟩
abbrev S8x16x512 : Shape := ⟨3, ![8, 16, 512]⟩
abbrev S8x16x512x1 : Shape := ⟨4, ![8, 16, 512, 1]⟩

abbrev nBuf : Space → Nat
  | .hbm => 21
  | .vmem => 0
  | .smem => 0
  | _ => 0

abbrev bufTy : (tb : Table) → Fin (tcTables nBuf tb) → BufTy
  | .hbm, ⟨0, _⟩ => ⟨S8x16x512x256, .f32⟩
  | .hbm, ⟨1, _⟩ => ⟨S8x16x512x256, .f32⟩
  | .hbm, ⟨2, _⟩ => ⟨S8x16x512x512, .f32⟩
  | .hbm, ⟨3, _⟩ => ⟨S_, .f32⟩
  | .hbm, ⟨4, _⟩ => ⟨S8x16x512, .f32⟩
  | .hbm, ⟨5, _⟩ => ⟨S8x16x512, .f32⟩
  | .hbm, ⟨6, _⟩ => ⟨S_, .f32⟩
  | .hbm, ⟨7, _⟩ => ⟨S8x16x512, .f32⟩
  | .hbm, ⟨8, _⟩ => ⟨S8x16x512, .f32⟩
  | .hbm, ⟨9, _⟩ => ⟨S8x16x512x1, .f32⟩
  | .hbm, ⟨10, _⟩ => ⟨S_, .f32⟩
  | .hbm, ⟨11, _⟩ => ⟨S8x16x512, .f32⟩
  | .hbm, ⟨12, _⟩ => ⟨S8x16x512, .f32⟩
  | .hbm, ⟨13, _⟩ => ⟨S_, .f32⟩
  | .hbm, ⟨14, _⟩ => ⟨S8x16x512, .f32⟩
  | .hbm, ⟨15, _⟩ => ⟨S8x16x512, .f32⟩
  | .hbm, ⟨16, _⟩ => ⟨S8x16x512x1, .f32⟩
  | .hbm, ⟨17, _⟩ => ⟨S8x16x512x256, .f32⟩
  | .hbm, ⟨18, _⟩ => ⟨S8x16x512x256, .f32⟩
  | .hbm, ⟨19, _⟩ => ⟨S8x16x512x256, .f32⟩
  | .hbm, ⟨20, _⟩ => ⟨S8x16x512x256, .f32⟩
  | _, _ => ⟨S8x16x512x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_call0_cst : Ref sig .tc := ⟨.hbm, 6, rfl⟩
abbrev main_call0_v0 : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_call1_cst : Ref sig .tc := ⟨.hbm, 13, rfl⟩
abbrev main_call1_v0 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩

abbrev nD : Nat := 1
abbrev τ : Topo := Topo.v7x

variable {F : FTy → Type} [FloatOps F]

class Facts₀ : Prop where
  reducesTo_S8x16x512x512_S8x16x512_d3 : S8x16x512x512.ReducesTo [3] S8x16x512
  h_S_ : 0 < S_.numel
  bcast_S_S8x16x512 : S_.BroadcastsInDim S8x16x512 (![] : Fin 0 → Fin S8x16x512.rank)
  bcast_S8x16x512_S8x16x512x1_0_1_2 : S8x16x512.BroadcastsInDim S8x16x512x1 (![0, 1, 2] : Fin 3 → Fin S8x16x512x1.rank)
  reducesTo_S8x16x512x512_S8x16x512_d2 : S8x16x512x512.ReducesTo [2] S8x16x512
  bcast_S8x16x512x1_S8x16x512x256_0_1_2_3 : S8x16x512x1.BroadcastsInDim S8x16x512x256 (![0, 1, 2, 3] : Fin 4 → Fin S8x16x512x256.rank)
  dot_S8x16x512x256_S8x16x512x256_S8x16x512x512_3_3_2_2_01_01_wf : DotDims.WF S8x16x512x256 S8x16x512x256 S8x16x512x512 [3] [3] [2] [2] [0, 1] [0, 1]

variable [Facts₀]

def dot_S8x16x512x256_S8x16x512x256_S8x16x512x512_3_3_2_2_01_01 : DotDims S8x16x512x256 S8x16x512x256 S8x16x512x512 where
  lhsContracting := [3]
  rhsContracting := [3]
  lhsNonContracting := [2]
  rhsNonContracting := [2]
  lhsBatch := [0, 1]
  rhsBatch := [0, 1]
  wf := dot_S8x16x512x256_S8x16x512x256_S8x16x512x512_3_3_2_2_01_01_wf

class Facts : Prop extends Facts₀ where

variable [Facts]
-- ==== Proof.GateLaw.lean ====
/-
  The scalar and summation facts by which the two programs agree.

  Both programs scale every row of an array by a GATE that is one where the row's score is positive and zero
  elsewhere. One program forms the gate by comparing the score with zero and converting the bit to a float;
  the other takes the maximum of the score's sign and zero. On the extended reals the two are the same
  function of the score, at the infinities too (`convert_cmp_eq_gate`, `max_sign_zero`).

  The scores themselves are `∑ n, ∑ d, a d * b n d` on one side and `∑ d, a d * ∑ n, b n d` on the other. Moving
  the factor `a d` across the inner sum is distributivity, which fails on the extended reals at the infinities
  (`⊤ * (1 + -1)` against `⊤ * 1 + ⊤ * -1`), so the interchange is stated for entries that are real numbers
  (`sum_sum_mul_eq`): there both sides are the coercion of one real double sum.
-/
import Idealize.ShloMosaic.PureOps.Ideal
import Idealize.ShloMosaic.PureOps.Ideal.Laws

noncomputable section

open scoped BigOperators

namespace Cert.GateScale

open Idealize.ShloMosaic

/-- The gate of a score: one where the score is positive, zero elsewhere. -/
def gate (x : EReal) : EReal := if 0 < x then 1 else 0

theorem gate_of_pos {x : EReal} (h : 0 < x) : gate x = 1 := if_pos h
theorem gate_of_not_pos {x : EReal} (h : ¬ 0 < x) : gate x = 0 := if_neg h

/-- The bit of the comparison `x > 0`, widened to a 32-bit word and read as a signed integer, is the gate of `x`. -/
theorem convert_cmp_eq_gate (x : EReal) :
    ((((Ideal.cmp .ogt x 0).setWidth 32).toInt : ℝ) : EReal) = gate x := by
  by_cases h : (0 : EReal) < x
  · rw [gate_of_pos h]
    have : Ideal.cmp .ogt x 0 = 1#1 := by simp [Ideal.cmp, h]
    rw [this]
    norm_num
  · rw [gate_of_not_pos h]
    have : Ideal.cmp .ogt x 0 = 0#1 := by simp [Ideal.cmp, h]
    rw [this]
    norm_num

/-- The maximum of a score's sign and zero is the gate of the score: the sign is `-1` below zero, `0` at zero
    and `1` above it, the infinities included. -/
theorem max_sign_zero (x : EReal) : max (Ideal.sign x) 0 = gate x := by
  rcases lt_trichotomy x 0 with h | h | h
  · rw [Ideal.sign_of_neg h, gate_of_not_pos (not_lt.mpr h.le)]
    exact max_eq_right (by norm_num)
  · subst h
    rw [Ideal.sign_zero, gate_of_not_pos (lt_irrefl _)]
    exact max_self _
  · rw [Ideal.sign_of_pos h, gate_of_pos h]
    exact max_eq_left (by norm_num)

/-- The coercion of a finite real sum is the sum of the coercions. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- THE INTERCHANGE. For real entries, summing the products `a d * b n d` over `d` and then over `n` is summing over
    `d` the product of `a d` with the sum of `b n d` over `n`: in the reals both are one double sum, by commuting the
    two sums and taking the common factor out of the inner one. -/
theorem sum_sum_mul_eq {ι κ : Type*} [Fintype ι] [Fintype κ] (a : κ → EReal) (b : ι → κ → EReal)
    (ha : ∀ d, ∃ r : ℝ, a d = r) (hb : ∀ n d, ∃ r : ℝ, b n d = r) :
    ∑ n, ∑ d, a d * b n d = ∑ d, a d * ∑ n, b n d := by
  choose ra hra using ha
  choose rb hrb using hb
  have hl : ∑ n, ∑ d, a d * b n d = ((∑ n, ∑ d, ra d * rb n d : ℝ) : EReal) := by
    rw [coe_sum]
    refine Finset.sum_congr rfl fun n _ => ?_
    rw [coe_sum]
    refine Finset.sum_congr rfl fun d _ => ?_
    rw [hra d, hrb n d, EReal.coe_mul]
  have hr : ∑ d, a d * ∑ n, b n d = ((∑ d, ra d * ∑ n, rb n d : ℝ) : EReal) := by
    rw [coe_sum]
    refine Finset.sum_congr rfl fun d _ => ?_
    rw [EReal.coe_mul, coe_sum, hra d]
    refine congrArg (_ * ·) (Finset.sum_congr rfl fun n _ => hrb n d)
  rw [hl, hr, Finset.sum_comm]
  refine congrArg _ (Finset.sum_congr rfl fun d _ => ?_)
  rw [Finset.mul_sum]

end Cert.GateScale

end
-- ==== Proof.Spec.lean ====
/-
  THE SPECIFICATION both programs meet, and the same function seen through the layouts the kernel uses.

  Over arrays `u v` of shape [8, 16, 512, 256] the SCORE of row `m` of batch (b, g) is
  `∑ d, u[b,g,m,d] * ∑ n, v[b,g,n,d]`, and the result is `u` with every row scaled by the gate of its score
  (`gated4`). The second result is the same function with the two arrays exchanged, `gated4 v u`.

  The kernel works on the arrays with their two leading axes merged into one of extent 128 (`gated3`, the same
  function over [128, 512, 256]) and, at each grid point, on a block of eight consecutive batches (`gatedB`, the same
  function over [8, 512, 256]). A row's score reads only its own batch, so the block of `gated3` is `gatedB` of the
  blocks, and `gated4` is `gated3` of the merged arrays, split again (`split_gated3_merge`): the index (b, g, m, d)
  and the index (16 b + g, m, d) have one row-major position.
-/
import proofs.«178846_j28999619182851_2_alg».proof.Proof.GateLaw
import Idealize.ShloMosaic.Lib.ValueIdx
import Idealize.ShloMosaic.Lib.Pipeline.Value

noncomputable section

open scoped BigOperators

namespace Cert.GateScale

open Idealize.ShloMosaic Idealize.ShloMosaic.ValueIdx

/-- The arguments' and results' shape. -/
abbrev A4 : Shape := ⟨4, ![8, 16, 512, 256]⟩
/-- The same with the two batch axes merged. -/
abbrev A3 : Shape := ⟨3, ![128, 512, 256]⟩
/-- A block of eight merged batches. -/
abbrev B3 : Shape := ⟨3, ![8, 512, 256]⟩

/-! ## The function, at the three layouts -/

/-- Row `m` of batch (b, g): the products of the row's entries with the column sums of the other array, summed. -/
def score4 (u v : A4.Idx → EReal) (b : Fin 8) (g : Fin 16) (m : Fin 512) : EReal :=
  ∑ d : Fin 256, u (ix4 b g m d) * ∑ n : Fin 512, v (ix4 b g n d)

/-- The result: each row of `u` scaled by the gate of its score against `v`. -/
def gated4 (u v : A4.Idx → EReal) : A4.Idx → EReal := fun i => gate (score4 u v (i 0) (i 1) (i 2)) * u i

theorem gated4_ix4 (u v : A4.Idx → EReal) (b : Fin 8) (g : Fin 16) (m : Fin 512) (d : Fin 256) :
    gated4 u v (ix4 b g m d) = gate (score4 u v b g m) * u (ix4 b g m d) := rfl

/-- The score over merged batches. -/
def score3 (U V : A3.Idx → EReal) (k : Fin 128) (m : Fin 512) : EReal :=
  ∑ d : Fin 256, U (ix3 k m d) * ∑ n : Fin 512, V (ix3 k n d)

/-- The result over merged batches. -/
def gated3 (U V : A3.Idx → EReal) : A3.Idx → EReal := fun i => gate (score3 U V (i 0) (i 1)) * U i

theorem gated3_ix3 (U V : A3.Idx → EReal) (k : Fin 128) (m : Fin 512) (d : Fin 256) :
    gated3 U V (ix3 k m d) = gate (score3 U V k m) * U (ix3 k m d) := rfl

/-- The score within a block of eight batches. -/
def scoreB (x y : B3.Idx → EReal) (p : Fin 8) (q : Fin 512) : EReal :=
  ∑ d : Fin 256, x (ix3 p q d) * ∑ n : Fin 512, y (ix3 p n d)

/-- The result within a block. -/
def gatedB (x y : B3.Idx → EReal) : B3.Idx → EReal := fun j => gate (scoreB x y (j 0) (j 1)) * x j

theorem gatedB_ix3 (x y : B3.Idx → EReal) (p : Fin 8) (q : Fin 512) (r : Fin 256) :
    gatedB x y (ix3 p q r) = gate (scoreB x y p q) * x (ix3 p q r) := rfl

/-! ## Merging and splitting the batch axes -/

/-- Batch (b, g) in the merged numbering. -/
def merge (b : Fin 8) (g : Fin 16) : Fin 128 := ⟨b.val * 16 + g.val, by omega⟩

section Layout
variable {α : Type}

/-- The merged array at (16 b + g, m, d) is the array at (b, g, m, d). -/
theorem merged_apply (u : A4.Idx → α) (h : A4.ShapeCasts A3) (b : Fin 8) (g : Fin 16) (m : Fin 512) (d : Fin 256) :
    shapeCast A3 u h (ix3 (merge b g) m d) = u (ix4 b g m d) :=
  shapeCast_apply u h _ _ (by
    rw [Shape.rowMajor_val_four, Shape.rowMajor_val_three]
    show ((b.val * 16 + g.val) * 512 + m.val) * 256 + d.val = ((b.val * 16 + g.val) * 512 + m.val) * 256 + d.val
    rfl)

/-- The split array at (b, g, m, d) is the array at (16 b + g, m, d). -/
theorem split_apply (W : A3.Idx → α) (h : A3.ShapeCasts A4) (b : Fin 8) (g : Fin 16) (m : Fin 512) (d : Fin 256) :
    shapeCast A4 W h (ix4 b g m d) = W (ix3 (merge b g) m d) :=
  shapeCast_apply W h _ _ (by
    rw [Shape.rowMajor_val_four, Shape.rowMajor_val_three]
    show ((b.val * 16 + g.val) * 512 + m.val) * 256 + d.val = ((b.val * 16 + g.val) * 512 + m.val) * 256 + d.val
    rfl)

end Layout

/-- `gated3` of the merged arrays, split, is `gated4`: a row's score reads its own batch only, and merging the batch
    axes renumbers the batches without moving an entry. -/
theorem split_gated3_merge (u v : A4.Idx → EReal) (h : A4.ShapeCasts A3) (h' : A3.ShapeCasts A4) :
    shapeCast A4 (gated3 (shapeCast A3 u h) (shapeCast A3 v h)) h' = gated4 u v := by
  funext i
  obtain ⟨b, g, m, d, rfl⟩ : ∃ (b : Fin 8) (g : Fin 16) (m : Fin 512) (d : Fin 256), i = ix4 b g m d :=
    ⟨i 0, i 1, i 2, i 3, eq_ix4 i⟩
  rw [split_apply, gated3_ix3, gated4_ix4, merged_apply]
  unfold score3 score4
  simp only [merged_apply]

end Cert.GateScale

end
-- ==== Proof.BlockOps.lean ====
/-
  The block's non-pointwise operations read at an index.

  Within a block [8, 512, 256] the kernel sums over the rows (axis 1) to get column sums [8, 256], views them as
  [8, 1, 256] and repeats them along the rows; it sums a product over the columns (axis 2) to get row scores [8, 512],
  views them as [8, 512, 1] and repeats them along the columns. Each lemma reads one of these operations at an index
  given by its coordinates: a sum over an axis is the `Fin`-indexed sum with that coordinate inserted, a view with a
  unit axis has the same row-major position with the unit coordinate dropped, and a repetition reads coordinate `0`
  on the unit axis.
-/
import Idealize.ShloMosaic.Lib.ValueIdx
import Idealize.ShloMosaic.Lib.Pipeline.Value
import Idealize.ShloMosaic.PureOps.Ideal.Laws

noncomputable section

open scoped BigOperators

namespace Cert.GateScale.Block

open Idealize.ShloMosaic Idealize.ShloMosaic.ValueIdx

abbrev B3 : Shape := ⟨3, ![8, 512, 256]⟩
/-- Column sums of a block, and their view with a unit row axis. -/
abbrev C2 : Shape := ⟨2, ![8, 256]⟩
abbrev C3 : Shape := ⟨3, ![8, 1, 256]⟩
/-- Row scores of a block, and their view with a unit column axis. -/
abbrev R2 : Shape := ⟨2, ![8, 512]⟩
abbrev R3 : Shape := ⟨3, ![8, 512, 1]⟩

/-- The sum over a block's rows, at batch `p` and column `k`: the sum over `n` of the block at (p, n, k). -/
theorem sum_rows_apply (x : FVec Ideal B3 .f32) (h : B3.Reduces [1] C2)
    (hacc : (0x00000000#32 : BitVec 32) = 0x00000000#32) (p : Fin 8) (k : Fin 256) :
    multiReduction .add [1] C2 x 0x00000000#32 h (.inl rfl) hacc (ix2 p k) = ∑ n : Fin 512, x (ix3 p n k) := by
  refine (Ideal.multiReduction_add_single x 0x00000000#32 h (.inl rfl) hacc (ix2 p k)).trans ?_
  show ∑ n : Fin 512, x (h.lift (ix2 p k) n) = _
  refine Finset.sum_congr rfl fun n _ => congrArg x (funext fun a => Fin.ext ?_)
  match a with
  | ⟨0, _⟩ => rfl
  | ⟨1, _⟩ => rfl
  | ⟨2, _⟩ => rfl

/-- The sum over a block's columns, at batch `p` and row `q`: the sum over `d` of the block at (p, q, d). -/
theorem sum_cols_apply (x : FVec Ideal B3 .f32) (h : B3.Reduces [2] R2)
    (hacc : (0x00000000#32 : BitVec 32) = 0x00000000#32) (p : Fin 8) (q : Fin 512) :
    multiReduction .add [2] R2 x 0x00000000#32 h (.inl rfl) hacc (ix2 p q) = ∑ d : Fin 256, x (ix3 p q d) := by
  refine (Ideal.multiReduction_add_single x 0x00000000#32 h (.inl rfl) hacc (ix2 p q)).trans ?_
  show ∑ d : Fin 256, x (h.lift (ix2 p q) d) = _
  refine Finset.sum_congr rfl fun d _ => congrArg x (funext fun a => Fin.ext ?_)
  match a with
  | ⟨0, _⟩ => rfl
  | ⟨1, _⟩ => rfl
  | ⟨2, _⟩ => rfl

section Layout
variable {α : Type}

/-- Column sums viewed with a unit row axis, at (p, z, k), are the column sums at (p, k). -/
theorem unit_row_apply (v : C2.Idx → α) (h : C2.ShapeCasts C3) (p : Fin 8) (z : Fin 1) (k : Fin 256) :
    shapeCast C3 v h (ix3 p z k) = v (ix2 p k) :=
  shapeCast_apply v h _ _ (by
    rw [Shape.rowMajor_val_two, Shape.rowMajor_val_three]
    show p.val * 256 + k.val = (p.val * 1 + z.val) * 256 + k.val
    have := z.isLt
    omega)

/-- Repeated along the rows, at (p, q, k), they are the unit-row view at (p, 0, k). -/
theorem repeat_rows_apply (w : C3.Idx → α) (h : C3.Broadcasts B3) (p : Fin 8) (q : Fin 512) (k : Fin 256) :
    broadcastTo B3 w h (ix3 p q k) = w (ix3 p (0 : Fin 1) k) :=
  broadcastTo_apply w h _ _ (fun a => match a with
    | ⟨0, _⟩ => by show p.val = if (8 : Nat) = 1 then 0 else p.val; rw [if_neg (by decide)]
    | ⟨1, _⟩ => by show 0 = if (1 : Nat) = 1 then 0 else q.val; rw [if_pos rfl]
    | ⟨2, _⟩ => by show k.val = if (256 : Nat) = 1 then 0 else k.val; rw [if_neg (by decide)])

/-- Row scores viewed with a unit column axis, at (p, q, z), are the row scores at (p, q). -/
theorem unit_col_apply (v : R2.Idx → α) (h : R2.ShapeCasts R3) (p : Fin 8) (q : Fin 512) (z : Fin 1) :
    shapeCast R3 v h (ix3 p q z) = v (ix2 p q) :=
  shapeCast_apply v h _ _ (by
    rw [Shape.rowMajor_val_two, Shape.rowMajor_val_three]
    show p.val * 512 + q.val = (p.val * 512 + q.val) * 1 + z.val
    have := z.isLt
    omega)

/-- Repeated along the columns, at (p, q, r), they are the unit-column view at (p, q, 0). -/
theorem repeat_cols_apply (w : R3.Idx → α) (h : R3.Broadcasts B3) (p : Fin 8) (q : Fin 512) (r : Fin 256) :
    broadcastTo B3 w h (ix3 p q r) = w (ix3 p q (0 : Fin 1)) :=
  broadcastTo_apply w h _ _ (fun a => match a with
    | ⟨0, _⟩ => by show p.val = if (8 : Nat) = 1 then 0 else p.val; rw [if_neg (by decide)]
    | ⟨1, _⟩ => by show q.val = if (512 : Nat) = 1 then 0 else q.val; rw [if_neg (by decide)]
    | ⟨2, _⟩ => by show 0 = if (1 : Nat) = 1 then 0 else r.val; rw [if_pos rfl])

end Layout

end Cert.GateScale.Block

end
-- ==== Proof.Payload.lean ====
/-
  What the kernel body stores, read at an index of the block.

  From the two loaded blocks `x0 x1` of shape [8, 512, 256] the body stores, into its first output,
  `gate (∑ d, x0[p,q,d] * ∑ n, x1[p,n,d]) * x0[p,q,r]` at (p, q, r) — the block form of the specification, `gatedB x0 x1`
  — and into its second output the same with the two blocks exchanged, `gatedB x1 x0`. Read from the outside in: the
  product with the loaded block; the gate repeated along the columns; the gate as the comparison bit widened and
  converted; the row score as a sum over the columns of the product with the column sums repeated along the rows;
  the column sums as sums over the rows. The body's two casts of a block to its own shape are the identity.
-/
import proofs.«178846_j28999619182851_2_alg».proof.Proof.Gen.KernelIdeal.Skeleton
import proofs.«178846_j28999619182851_2_alg».proof.Proof.Spec
import proofs.«178846_j28999619182851_2_alg».proof.Proof.BlockOps

noncomputable section

open scoped BigOperators

namespace Cert.KernelIdeal.Body

open Cert.KernelIdeal Cert.KernelIdeal.Gen
open Idealize.ShloMosaic Idealize.ShloMosaic.ValueIdx Cert.GateScale Cert.GateScale.Block

/-- The gate as the body forms it, at one row: the row score compared with zero, the bit widened, the word converted. -/
theorem gate_word (s : EReal) :
    FloatOps.sitofp (F := Ideal) .f32
      ((FloatOps.cmpf (F := Ideal) (φ := .f32) .ogt s (Scalar.ofBits .f32 0x00000000#32)).setWidth 32) = gate s := by
  show ((((Ideal.cmp .ogt s (Ideal.ofBits .f32 0x00000000#32)).setWidth 32).toInt : ℝ) : EReal) = gate s
  rw [Ideal.ofBits_zero_f32]
  exact convert_cmp_eq_gate s

/-- The stored value of one output in terms of the block it scales (`x`) and the block whose column sums gate it (`y`),
    at (p, q, r): the shape both of the body's stores have, once its identity casts are removed. -/
theorem stored_apply (x y : FVec Ideal S8x512x256 .f32) (p : Fin 8) (q : Fin 512) (r : Fin 256) :
    mulf (broadcastTo S8x512x256
        (sitofp .f32 (extui 32 (cmpf .ogt
          (shapeCast S8x512x1
            (multiReduction .add [2] S8x512
              (mulf x (broadcastTo S8x512x256
                (shapeCast S8x1x256
                  (multiReduction .add [1] S8x256 y 0x00000000#32 reduces_S8x512x256_S8x256 (.inl rfl) rfl)
                  shapeCasts_S8x256_S8x1x256)
                broadcasts_S8x1x256_S8x512x256))
              0x00000000#32 reduces_S8x512x256_S8x512 (.inl rfl) rfl)
            shapeCasts_S8x512_S8x512x1)
          (broadcast S8x512x1 (Scalar.ofBits .f32 0x00000000#32))) natLt_1_32))
        broadcasts_S8x512x1_S8x512x256) x (ix3 p q r)
      = gate (scoreB x y p q) * x (ix3 p q r) := by
  rw [mulf_apply, repeat_cols_apply, sitofp_apply, extui_apply, cmpf_apply, unit_col_apply, broadcast_apply,
    sum_cols_apply, gate_word]
  refine congrArg (gate · * _) (Finset.sum_congr rfl fun d _ => ?_)
  rw [mulf_apply, repeat_rows_apply, unit_row_apply, sum_rows_apply]

/-- The first store's value is the block specification of the two loaded blocks. -/
theorem pay3_eq (x0 x1 : Vec Ideal S8x512x256 .f32) : k0_pay3 x0 x1 = gatedB x0 x1 := by
  funext j
  obtain ⟨p, q, r, rfl⟩ : ∃ (p : Fin 8) (q : Fin 512) (r : Fin 256), j = ix3 p q r := ⟨j 0, j 1, j 2, eq_ix3 j⟩
  have e1 : k0_pay1 x0 = x0 := shapeCast_self _ _
  have e2 : k0_pay2 x1 = x1 := shapeCast_self _ _
  unfold k0_pay3
  rw [e1, e2, gatedB_ix3]
  exact stored_apply x0 x1 p q r

/-- The second store's value is the block specification with the two loaded blocks exchanged. -/
theorem pay4_eq (x0 x1 : Vec Ideal S8x512x256 .f32) : k0_pay4 x0 x1 = gatedB x1 x0 := by
  funext j
  obtain ⟨p, q, r, rfl⟩ : ∃ (p : Fin 8) (q : Fin 512) (r : Fin 256), j = ix3 p q r := ⟨j 0, j 1, j 2, eq_ix3 j⟩
  have e1 : k0_pay1 x0 = x0 := shapeCast_self _ _
  have e2 : k0_pay2 x1 = x1 := shapeCast_self _ _
  unfold k0_pay4
  rw [e1, e2, gatedB_ix3]
  exact stored_apply x1 x0 p q r

end Cert.KernelIdeal.Body

end
-- ==== Proof.KernelArrays.lean ====
/-
  The kernel's two output arrays after the region, as the specification over merged batches.

  Grid point `t` stages batches `8 t … 8 t + 7` of both inputs, whole in the other two axes, and writes back the same
  batches of both outputs: every window's block index at `t` is (t, 0, 0), so local index (p, q, r) of any block sits
  at (8 t + p, q, r) of its array. A row's score reads only its own batch, so the block specification of the two input
  blocks at `t` IS block `t` of the whole-array specification (`written_first`, `written_second`). The sixteen blocks
  tile the batch axis — batch `k` is in the block of point `k / 8` — so each output array ends holding the whole-array
  specification of the two arrays the region was entered with (`first_array`, `second_array`).
-/
import proofs.«178846_j28999619182851_2_alg».proof.Proof.Gen.KernelIdeal.Frame
import proofs.«178846_j28999619182851_2_alg».proof.Proof.Payload

set_option maxRecDepth 16384

noncomputable section

open scoped BigOperators

namespace Cert.KernelIdeal.Arrays

open Cert.KernelIdeal Cert.KernelIdeal.Gen
open Idealize.ShloMosaic Idealize.ShloMosaic.TcCoe Idealize.ShloMosaic.ValueIdx Idealize.SL.Sem
open Idealize.ShloMosaic.Pipeline (Dat Cfg Window)
open Cert.GateScale

variable (m : (ℓ : Loc nD τ sig) → Buf (Elt Ideal) ℓ)

theorem zero_offsets : (![0, 0, 0] : Fin 3 → Nat) = fun _ => 0 := funext fun a => by fin_cases a <;> rfl

/-- Every window's block index at point `t` is (t, 0, 0), decided over the sixteen points. -/
theorem block_index : ∀ t : Fin cfg0.N,
    (win0_0.index t (0 : Fin 3) = t.val ∧ win0_0.index t (1 : Fin 3) = 0 ∧ win0_0.index t (2 : Fin 3) = 0)
    ∧ (win0_1.index t (0 : Fin 3) = t.val ∧ win0_1.index t (1 : Fin 3) = 0 ∧ win0_1.index t (2 : Fin 3) = 0)
    ∧ (win0_2.index t (0 : Fin 3) = t.val ∧ win0_2.index t (1 : Fin 3) = 0 ∧ win0_2.index t (2 : Fin 3) = 0)
    ∧ (win0_3.index t (0 : Fin 3) = t.val ∧ win0_3.index t (1 : Fin 3) = 0 ∧ win0_3.index t (2 : Fin 3) = 0) :=
  (by decide +kernel : ∀ t : Fin grid0.N, _)

/-- The batch that local batch `p` of point `t`'s block is. -/
def batch (t : Fin cfg0.N) (p : Fin 8) : Fin 128 :=
  ⟨t.val * 8 + p.val, by have h : t.val < 16 := Nat.lt_of_lt_of_eq t.isLt N_0; omega⟩

/-- The block specification of blocks cut out of two arrays along the batch axis is the whole-array specification
    at the batch the block's local batch is: a row's score reads its own batch only. -/
theorem block_of_gated3 (U W : A3.Idx → EReal) (bt : Fin 8 → Fin 128) (p : Fin 8) (q : Fin 512) (r : Fin 256) :
    gatedB (fun j : B3.Idx => U (ix3 (bt (j 0)) (j 1) (j 2))) (fun j : B3.Idx => W (ix3 (bt (j 0)) (j 1) (j 2))) (ix3 p q r)
      = gated3 U W (ix3 (bt p) q r) := rfl

/-! ## Where a block's element sits in its array -/

theorem place0 (t : Fin cfg0.N) (p : Fin 8) (q : Fin 512) (r : Fin 256) :
    ((cfg0.win 0).blk t).view.emb (ix3 p q r) = ix3 (batch t p) q r := by
  obtain ⟨⟨e0, e1, e2⟩, -, -, -⟩ := block_index t
  funext a; apply Fin.ext
  match a with
  | ⟨0, _⟩ => show win0_0.index t (0 : Fin 3) * 8 + 1 * p.val = t.val * 8 + p.val; omega
  | ⟨1, _⟩ => show win0_0.index t (1 : Fin 3) * 512 + 1 * q.val = q.val; omega
  | ⟨2, _⟩ => show win0_0.index t (2 : Fin 3) * 256 + 1 * r.val = r.val; omega

theorem place1 (t : Fin cfg0.N) (p : Fin 8) (q : Fin 512) (r : Fin 256) :
    ((cfg0.win 1).blk t).view.emb (ix3 p q r) = ix3 (batch t p) q r := by
  obtain ⟨-, ⟨e0, e1, e2⟩, -, -⟩ := block_index t
  funext a; apply Fin.ext
  match a with
  | ⟨0, _⟩ => show win0_1.index t (0 : Fin 3) * 8 + 1 * p.val = t.val * 8 + p.val; omega
  | ⟨1, _⟩ => show win0_1.index t (1 : Fin 3) * 512 + 1 * q.val = q.val; omega
  | ⟨2, _⟩ => show win0_1.index t (2 : Fin 3) * 256 + 1 * r.val = r.val; omega

theorem place2 (t : Fin cfg0.N) (p : Fin 8) (q : Fin 512) (r : Fin 256) :
    ((cfg0.win 2).blk t).view.emb (ix3 p q r) = ix3 (batch t p) q r := by
  obtain ⟨-, -, ⟨e0, e1, e2⟩, -⟩ := block_index t
  funext a; apply Fin.ext
  match a with
  | ⟨0, _⟩ => show win0_2.index t (0 : Fin 3) * 8 + 1 * p.val = t.val * 8 + p.val; omega
  | ⟨1, _⟩ => show win0_2.index t (1 : Fin 3) * 512 + 1 * q.val = q.val; omega
  | ⟨2, _⟩ => show win0_2.index t (2 : Fin 3) * 256 + 1 * r.val = r.val; omega

theorem place3 (t : Fin cfg0.N) (p : Fin 8) (q : Fin 512) (r : Fin 256) :
    ((cfg0.win 3).blk t).view.emb (ix3 p q r) = ix3 (batch t p) q r := by
  obtain ⟨-, -, -, ⟨e0, e1, e2⟩⟩ := block_index t
  funext a; apply Fin.ext
  match a with
  | ⟨0, _⟩ => show win0_3.index t (0 : Fin 3) * 8 + 1 * p.val = t.val * 8 + p.val; omega
  | ⟨1, _⟩ => show win0_3.index t (1 : Fin 3) * 512 + 1 * q.val = q.val; omega
  | ⟨2, _⟩ => show win0_3.index t (2 : Fin 3) * 256 + 1 * r.val = r.val; omega

/-- The first input's block at point `t`: the first input array read at the block's batches. -/
theorem input0_block (c : Dev nD) (t : Fin cfg0.N) :
    (iblk m c 0 t : B3.Idx → EReal) = fun j => V m c main_v0 (ix3 (batch t (j 0)) (j 1) (j 2)) := by
  funext j
  obtain ⟨p, q, r, rfl⟩ : ∃ (p : Fin 8) (q : Fin 512) (r : Fin 256), j = ix3 p q r := ⟨j 0, j 1, j 2, eq_ix3 j⟩
  show V m c main_v0 (((cfg0.win 0).blk t).view.emb (ix3 p q r)) = V m c main_v0 (ix3 (batch t p) q r)
  rw [place0]

/-- The second input's block at point `t`: the second input array read at the block's batches. -/
theorem input1_block (c : Dev nD) (t : Fin cfg0.N) :
    (iblk m c 1 t : B3.Idx → EReal) = fun j => V m c main_v1 (ix3 (batch t (j 0)) (j 1) (j 2)) := by
  funext j
  obtain ⟨p, q, r, rfl⟩ : ∃ (p : Fin 8) (q : Fin 512) (r : Fin 256), j = ix3 p q r := ⟨j 0, j 1, j 2, eq_ix3 j⟩
  show V m c main_v1 (((cfg0.win 1).blk t).view.emb (ix3 p q r)) = V m c main_v1 (ix3 (batch t p) q r)
  rw [place1]

/-! ## What each point writes back -/

/-- WHAT POINT `t` WRITES BACK to the first output is block `t` of the specification of the two input arrays. -/
theorem written_first (c : Dev nD) (t : Fin cfg0.N) :
    (dats m 0 c).flushed 2 t
      = ((cfg0.win 2).blk t).view.read (Elt Ideal) (gated3 (V m c main_v0) (V m c main_v1)) := by
  show (cfg0.win 2).cut (grid0.coords t) ((dats m 0 c).after 2 t) = _
  rw [after0_2]
  unfold out0_2
  rw [View.canon_unit_zero zero_offsets]
  simp only [View.ld_unit_zero (S := S8x512x256) zero_offsets]
  rw [Body.pay3_eq, input0_block, input1_block]
  funext j
  obtain ⟨p, q, r, rfl⟩ : ∃ (p : Fin 8) (q : Fin 512) (r : Fin 256), j = ix3 p q r := ⟨j 0, j 1, j 2, eq_ix3 j⟩
  show _ = gated3 (V m c main_v0) (V m c main_v1) (((cfg0.win 2).blk t).view.emb (ix3 p q r))
  rw [place2]
  exact block_of_gated3 (V m c main_v0) (V m c main_v1) (batch t) p q r

/-- WHAT POINT `t` WRITES BACK to the second output is block `t` of the specification with the two arrays exchanged. -/
theorem written_second (c : Dev nD) (t : Fin cfg0.N) :
    (dats m 0 c).flushed 3 t
      = ((cfg0.win 3).blk t).view.read (Elt Ideal) (gated3 (V m c main_v1) (V m c main_v0)) := by
  show (cfg0.win 3).cut (grid0.coords t) ((dats m 0 c).after 3 t) = _
  rw [after0_3]
  unfold out0_3
  rw [View.canon_unit_zero zero_offsets]
  simp only [View.ld_unit_zero (S := S8x512x256) zero_offsets]
  rw [Body.pay4_eq, input0_block, input1_block]
  funext j
  obtain ⟨p, q, r, rfl⟩ : ∃ (p : Fin 8) (q : Fin 512) (r : Fin 256), j = ix3 p q r := ⟨j 0, j 1, j 2, eq_ix3 j⟩
  show _ = gated3 (V m c main_v1) (V m c main_v0) (((cfg0.win 3).blk t).view.emb (ix3 p q r))
  rw [place3]
  exact block_of_gated3 (V m c main_v1) (V m c main_v0) (batch t) p q r

/-! ## The blocks tile the batch axis -/

/-- An index of the first output array is in point `t`'s block iff each coordinate is in the block's range on its axis. -/
theorem mem_block2 (t : Fin cfg0.N) (i : S128x512x256.Idx) :
    i ∈ ((cfg0.win 2).blk t).view.set ↔ ∀ a : Fin 3, win0_2.index t a * S8x512x256.size a ≤ (i a).val
      ∧ (i a).val < win0_2.index t a * S8x512x256.size a + S8x512x256.size a := by
  show i ∈ ((View.whole main_v2_0).slice (win0_2.rect t)).set ↔ _
  rw [View.set_slice_whole, Rect.mem_set_unit]
  exact Iff.rfl

theorem mem_block3 (t : Fin cfg0.N) (i : S128x512x256.Idx) :
    i ∈ ((cfg0.win 3).blk t).view.set ↔ ∀ a : Fin 3, win0_3.index t a * S8x512x256.size a ≤ (i a).val
      ∧ (i a).val < win0_3.index t a * S8x512x256.size a + S8x512x256.size a := by
  show i ∈ ((View.whole main_v2_1).slice (win0_3.rect t)).set ↔ _
  rw [View.set_slice_whole, Rect.mem_set_unit]
  exact Iff.rfl

/-- The point whose block holds batch `k`: `k / 8`. -/
def pointOf (i : S128x512x256.Idx) : Fin cfg0.N :=
  ⟨(i 0).val / 8, by
    have h : (i 0).val < 128 := (i 0).isLt
    have hN : grid0.N = 16 := N_0
    show (i 0).val / 8 < grid0.N
    omega⟩

/-- Every index of the first output array is in the block of a point that writes back. -/
theorem covered2 (i : S128x512x256.Idx) :
    ∃ t : Fin cfg0.N, (cfg0.win 2).flush t = true ∧ i ∈ ((cfg0.win 2).blk t).view.set := by
  refine ⟨pointOf i, flush0_2 _, ?_⟩
  rw [mem_block2]
  obtain ⟨-, -, ⟨e0, e1, e2⟩, -⟩ := block_index (pointOf i)
  have h0 : (i 0).val < 128 := (i 0).isLt
  have h1 : (i 1).val < 512 := (i 1).isLt
  have h2 : (i 2).val < 256 := (i 2).isLt
  have ht : (pointOf i).val = (i 0).val / 8 := rfl
  intro a
  match a with
  | ⟨0, _⟩ =>
    show win0_2.index (pointOf i) (0 : Fin 3) * 8 ≤ (i 0).val ∧ (i 0).val < win0_2.index (pointOf i) (0 : Fin 3) * 8 + 8
    omega
  | ⟨1, _⟩ =>
    show win0_2.index (pointOf i) (1 : Fin 3) * 512 ≤ (i 1).val ∧ (i 1).val < win0_2.index (pointOf i) (1 : Fin 3) * 512 + 512
    omega
  | ⟨2, _⟩ =>
    show win0_2.index (pointOf i) (2 : Fin 3) * 256 ≤ (i 2).val ∧ (i 2).val < win0_2.index (pointOf i) (2 : Fin 3) * 256 + 256
    omega

/-- Every index of the second output array is in the block of a point that writes back. -/
theorem covered3 (i : S128x512x256.Idx) :
    ∃ t : Fin cfg0.N, (cfg0.win 3).flush t = true ∧ i ∈ ((cfg0.win 3).blk t).view.set := by
  refine ⟨pointOf i, flush0_3 _, ?_⟩
  rw [mem_block3]
  obtain ⟨-, -, -, ⟨e0, e1, e2⟩⟩ := block_index (pointOf i)
  have h0 : (i 0).val < 128 := (i 0).isLt
  have h1 : (i 1).val < 512 := (i 1).isLt
  have h2 : (i 2).val < 256 := (i 2).isLt
  have ht : (pointOf i).val = (i 0).val / 8 := rfl
  intro a
  match a with
  | ⟨0, _⟩ =>
    show win0_3.index (pointOf i) (0 : Fin 3) * 8 ≤ (i 0).val ∧ (i 0).val < win0_3.index (pointOf i) (0 : Fin 3) * 8 + 8
    omega
  | ⟨1, _⟩ =>
    show win0_3.index (pointOf i) (1 : Fin 3) * 512 ≤ (i 1).val ∧ (i 1).val < win0_3.index (pointOf i) (1 : Fin 3) * 512 + 512
    omega
  | ⟨2, _⟩ =>
    show win0_3.index (pointOf i) (2 : Fin 3) * 256 ≤ (i 2).val ∧ (i 2).val < win0_3.index (pointOf i) (2 : Fin 3) * 256 + 256
    omega

/-! ## The arrays after the region -/

/-- THE FIRST OUTPUT ARRAY after the region: the specification of the two input arrays as the region found them. -/
theorem first_array (c : Dev nD) :
    (dats m 0 c).arrAt 2 cfg0.N = gated3 (V m c main_v0) (V m c main_v1) :=
  (dats m 0 c).arrAt_eq_of_cover 2 (gated3 (V m c main_v0) (V m c main_v1)) (fun t _ => written_first m c t) covered2

/-- THE SECOND OUTPUT ARRAY after the region: the specification with the two input arrays exchanged. -/
theorem second_array (c : Dev nD) :
    (dats m 0 c).arrAt 3 cfg0.N = gated3 (V m c main_v1) (V m c main_v0) :=
  (dats m 0 c).arrAt_eq_of_cover 3 (gated3 (V m c main_v1) (V m c main_v0)) (fun t _ => written_second m c t) covered3

end Cert.KernelIdeal.Arrays

end
-- ==== Proof.KernelRun.lean ====
/-
  The kernel program's run, with both results named: `gated4` of the arguments, and `gated4` of them exchanged.

  Before the region the program merges the two batch axes of each argument; after it, it splits the batch axis of each
  output array again. So each result is the split of the specification over merged batches of the merged arguments,
  which is the specification over the arguments themselves (`split_gated3_merge`). The arguments end as launched.
-/
import proofs.«178846_j28999619182851_2_alg».proof.Proof.KernelArrays
import Idealize.ShloMosaic.Lib.StableHlo.Run

set_option maxRecDepth 16384

noncomputable section

namespace Cert.KernelIdeal.Arrays

open Cert.KernelIdeal Cert.KernelIdeal.Gen
open Idealize.ShloMosaic Idealize.ShloMosaic.TcCoe Idealize.ShloMosaic.ValueIdx Idealize.SL.Sem
open Idealize.ShloMosaic.StableHlo
open Cert.GateScale

variable (m : (ℓ : Loc nD τ sig) → Buf (Elt Ideal) ℓ) (ρ : Dev nD → PrngReg)

/-- The region finds, as its first input array, the first argument with its batch axes merged. -/
theorem entered_first (c : Dev nD) :
    (V m c main_v0 : A3.Idx → EReal)
      = shapeCast S128x512x256 (m ((c : Thread nD τ).loc main_arg0)) shapeCasts_S8x16x512x256_S128x512x256 := by
  show StableHlo.after hostOps0 (fun b => m (c, b)) (Proc.devRef .tc main_v0) = _
  after_results
  rfl

/-- The region finds, as its second input array, the second argument with its batch axes merged. -/
theorem entered_second (c : Dev nD) :
    (V m c main_v1 : A3.Idx → EReal)
      = shapeCast S128x512x256 (m ((c : Thread nD τ).loc main_arg1)) shapeCasts_S8x16x512x256_S128x512x256 := by
  show StableHlo.after hostOps0 (fun b => m (c, b)) (Proc.devRef .tc main_v1) = _
  after_results
  rfl

/-- The first result after the program's last lines: the first output array with its batch axis split. -/
theorem first_result_tail (c : Dev nD) :
    Pipeline.afterTail₀ cfgs (dats m) 0 (V0 m) [hostOps1] c main_v3
      = shapeCast S8x16x512x256 ((dats m 0 c).arrAt 2 cfg0.N) shapeCasts_S128x512x256_S8x16x512x256 := by
  unfold Pipeline.afterTail₀
  show StableHlo.after hostOps1 _ (Proc.devRef .tc main_v3) = _
  after_results
  exact congrArg (fun W => shapeCast S8x16x512x256 W shapeCasts_S128x512x256_S8x16x512x256)
    (Pipeline.withArrays_arr spec0 launch0.win.arr_inj c (V0 m c) (fun w => (dats m 0 c).arrAt w cfg0.N) 2)

/-- The second result after the program's last lines: the second output array with its batch axis split. -/
theorem second_result_tail (c : Dev nD) :
    Pipeline.afterTail₀ cfgs (dats m) 0 (V0 m) [hostOps1] c main_v4
      = shapeCast S8x16x512x256 ((dats m 0 c).arrAt 3 cfg0.N) shapeCasts_S128x512x256_S8x16x512x256 := by
  unfold Pipeline.afterTail₀
  show StableHlo.after hostOps1 _ (Proc.devRef .tc main_v4) = _
  after_results
  exact congrArg (fun W => shapeCast S8x16x512x256 W shapeCasts_S128x512x256_S8x16x512x256)
    (Pipeline.withArrays_arr spec0 launch0.win.arr_inj c (V0 m c) (fun w => (dats m 0 c).arrAt w cfg0.N) 3)

/-- THE FIRST RESULT: the rows of the first argument scaled by the gate of their scores against the second. -/
theorem first_result (c : Dev nD) :
    Pipeline.afterTail₀ cfgs (dats m) 0 (V0 m) [hostOps1] c main_v3
      = gated4 (m ((c : Thread nD τ).loc main_arg0)) (m ((c : Thread nD τ).loc main_arg1)) := by
  rw [first_result_tail, first_array, entered_first, entered_second]
  exact split_gated3_merge _ _ _ _

/-- THE SECOND RESULT: the rows of the second argument scaled by the gate of their scores against the first. -/
theorem second_result (c : Dev nD) :
    Pipeline.afterTail₀ cfgs (dats m) 0 (V0 m) [hostOps1] c main_v4
      = gated4 (m ((c : Thread nD τ).loc main_arg1)) (m ((c : Thread nD τ).loc main_arg0)) := by
  rw [second_result_tail, second_array, entered_first, entered_second]
  exact split_gated3_merge _ _ _ _

/-- THE RUN: every weakly fair execution of the kernel program terminates, without a fault, with each result at the
    specification of the arguments as launched and the arguments unchanged. -/
theorem run : θ_run defs (onTc (τ := τ) (main (F := Ideal))) ⟨m, fun _ => 0, ρ⟩ fun r => ∀ c : Dev nD,
      r.2.mem ((c.tc : Thread nD τ).loc main_v3)
        = gated4 (m ((c.tc : Thread nD τ).loc main_arg0)) (m ((c.tc : Thread nD τ).loc main_arg1))
      ∧ r.2.mem ((c.tc : Thread nD τ).loc main_v4)
        = gated4 (m ((c.tc : Thread nD τ).loc main_arg1)) (m ((c.tc : Thread nD τ).loc main_arg0))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
    ⟨((h c).2 main_v3 (Pipeline.mem_restRefs_of main_v3 (by decide) (by decide))).trans (first_result m c),
      ((h c).2 main_v4 (Pipeline.mem_restRefs_of main_v4 (by decide) (by decide))).trans (second_result m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c)⟩)
    (run_main m ρ)

end Cert.KernelIdeal.Arrays

end
-- ==== Proof.ReferenceValue.lean ====
/-
  The reference's two results are the specification, for arguments whose entries are real numbers.

  The reference forms the full score matrix `s[b,g,m,n] = ∑ d, u[b,g,m,d] * v[b,g,n,d]`, sums it over `n` (for the first
  result) or over `m` (for the second), takes the sign, its maximum with zero, and scales the rows of `u` (of `v`).
  Read at an index (b, g, m, d) the first result is `max (sign (0 + ∑ n, ∑ d', u[b,g,m,d'] * v[b,g,n,d'])) 0 * u[b,g,m,d]`.
  The maximum of the sign with zero is the gate; the double sum is the specification's score by the interchange of
  the two sums, which is where the entries being real is used. For the second result the product is commuted first,
  so that the fixed row is `v`'s.
-/
import proofs.«178846_j28999619182851_2_alg».proof.Proof.Gen.ReferenceIdeal.Read
import proofs.«178846_j28999619182851_2_alg».proof.Proof.Spec

noncomputable section

open scoped BigOperators

namespace Cert.ReferenceIdeal.RefValue

open Cert.ReferenceIdeal Cert.ReferenceIdeal.Gen Cert.ReferenceIdeal.Read
open Idealize.ShloMosaic Idealize.ShloMosaic.ValueIdx Cert.GateScale

/-- Every entry of the array is a real number. -/
def RealEntries (x : A4.Idx → EReal) : Prop := ∀ i, ∃ r : ℝ, x i = r

/-- The first result: the rows of `x0` scaled by the gate of their scores against `x1`. -/
theorem first_result_eq (x0 x1 : A4.Idx → EReal) (h0 : RealEntries x0) (h1 : RealEntries x1) :
    val_main_v10 (F := Ideal) x0 x1 = gated4 x0 x1 := by
  funext i
  obtain ⟨b, g, m, d, rfl⟩ : ∃ (b : Fin 8) (g : Fin 16) (m : Fin 512) (d : Fin 256), i = ix4 b g m d :=
    ⟨i 0, i 1, i 2, i 3, eq_ix4 i⟩
  have el : ∀ (n : Fin 512) (d' : Fin 256),
      lidx_main_v0 (idx_main_v1 (idx_main_v4 (idx_main_v9 (ix4 b g m d))) n) d' = ix4 b g m d' :=
    fun n d' => funext fun a => Fin.ext (by
      match a with | ⟨0, _⟩ => rfl | ⟨1, _⟩ => rfl | ⟨2, _⟩ => rfl | ⟨3, _⟩ => rfl)
  have er : ∀ (n : Fin 512) (d' : Fin 256),
      ridx_main_v0 (idx_main_v1 (idx_main_v4 (idx_main_v9 (ix4 b g m d))) n) d' = ix4 b g n d' :=
    fun n d' => funext fun a => Fin.ext (by
      match a with | ⟨0, _⟩ => rfl | ⟨1, _⟩ => rfl | ⟨2, _⟩ => rfl | ⟨3, _⟩ => rfl)
  rw [val_main_v10_apply, val_main_v9_apply, val_main_v4_apply, val_main_v3_apply, val_main_v2_apply,
    val_main_v1_apply, val_main_call0_v0_apply, val_main_call0_cst_apply, val_main_cst_apply, gated4_ix4]
  simp only [val_main_v0_apply, el, er, Ideal.mulf_def, Ideal.maximumf_def, Ideal.hostUnary_sign_def,
    Ideal.ofBits_def, Ideal.ofBits_zero_f32, zero_add, max_sign_zero]
  unfold score4
  rw [sum_sum_mul_eq (fun d' => x0 (ix4 b g m d')) (fun n d' => x1 (ix4 b g n d'))
    (fun d' => h0 _) (fun n d' => h1 _)]

/-- The second result: the rows of `x1` scaled by the gate of their scores against `x0`. -/
theorem second_result_eq (x0 x1 : A4.Idx → EReal) (h0 : RealEntries x0) (h1 : RealEntries x1) :
    val_main_v12 (F := Ideal) x0 x1 = gated4 x1 x0 := by
  funext i
  obtain ⟨b, g, n, d, rfl⟩ : ∃ (b : Fin 8) (g : Fin 16) (n : Fin 512) (d : Fin 256), i = ix4 b g n d :=
    ⟨i 0, i 1, i 2, i 3, eq_ix4 i⟩
  have el : ∀ (m : Fin 512) (d' : Fin 256),
      lidx_main_v0 (idx_main_v5 (idx_main_v8 (idx_main_v11 (ix4 b g n d))) m) d' = ix4 b g m d' :=
    fun m d' => funext fun a => Fin.ext (by
      match a with | ⟨0, _⟩ => rfl | ⟨1, _⟩ => rfl | ⟨2, _⟩ => rfl | ⟨3, _⟩ => rfl)
  have er : ∀ (m : Fin 512) (d' : Fin 256),
      ridx_main_v0 (idx_main_v5 (idx_main_v8 (idx_main_v11 (ix4 b g n d))) m) d' = ix4 b g n d' :=
    fun m d' => funext fun a => Fin.ext (by
      match a with | ⟨0, _⟩ => rfl | ⟨1, _⟩ => rfl | ⟨2, _⟩ => rfl | ⟨3, _⟩ => rfl)
  rw [val_main_v12_apply, val_main_v11_apply, val_main_v8_apply, val_main_v7_apply, val_main_v6_apply,
    val_main_v5_apply, val_main_call1_v0_apply, val_main_call1_cst_apply, val_main_cst_0_apply, gated4_ix4]
  simp only [val_main_v0_apply, el, er, Ideal.mulf_def, Ideal.maximumf_def, Ideal.hostUnary_sign_def,
    Ideal.ofBits_def, Ideal.ofBits_zero_f32, zero_add, max_sign_zero]
  unfold score4
  rw [← sum_sum_mul_eq (fun d' => x1 (ix4 b g n d')) (fun m d' => x0 (ix4 b g m d'))
    (fun d' => h1 _) (fun m d' => h0 _)]
  refine congrArg (gate · * _) (Finset.sum_congr rfl fun m _ => Finset.sum_congr rfl fun d' _ => mul_comm _ _)

end Cert.ReferenceIdeal.RefValue

end
-- ==== Proof.RealInputs.lean ====
/-
  The precondition read back: every entry of both argument arrays is a real number.

  The precondition is the conjunction of two `all`s, one per argument, of `|x| < +∞` taken entry by entry. A conjunction
  of bits that is one has both bits one; an `all` that is one had a one at every entry; and on the extended reals
  `max x (-x) < ⊤` excludes exactly `⊤` and `⊥` (whose negation is `⊤`), leaving the coercion of a real.
-/
import proofs.«178846_j28999619182851_2_alg».proof.Pre_finite_inputs
import Idealize.ShloMosaic.Lib.ReduceAll
import Idealize.ShloMosaic.Lib.ValueIdx
import Idealize.ShloMosaic.PureOps.Ideal.Laws

noncomputable section

namespace Cert.Pre_finite_inputs.Decode

open Idealize.ShloMosaic Cert.Pre_finite_inputs

instance : Subsingleton S_.Idx := ⟨fun a b => funext fun d => d.elim0⟩

/-- The f32 word `0x7F800000` denotes `+∞`. -/
theorem ofBits_inf : Ideal.ofBits .f32 0x7F800000#32 = ⊤ := by simp [Ideal.ofBits, Ideal.ieee]

/-- An extended real whose absolute value compares below `+∞` is a real number. -/
theorem real_of_abs_lt (x : EReal)
    (h : Ideal.cmp .olt (max x (-x)) (Ideal.ofBits .f32 0x7F800000#32) = 1#1) : ∃ r : ℝ, x = r := by
  rw [ofBits_inf] at h
  have hlt : max x (-x) < ⊤ := by
    by_contra hn
    simp [Ideal.cmp, hn] at h
  induction x using EReal.rec with
  | bot => simp at hlt
  | top => simp at hlt
  | coe r => exact ⟨r, rfl⟩

/-- Under the precondition every entry of each argument is a real number. -/
theorem real_entries [Facts] (x0 x1 : FVec Ideal S8x16x512x256 .f32)
    (h : fn (F := Ideal) x0 x1 = fun _ => 1#1) :
    (∀ i, ∃ r : ℝ, x0 i = r) ∧ (∀ i, ∃ r : ℝ, x1 i = r) := by
  have h0 := congrFun h ValueIdx.ix0
  dsimp only [fn] at h0
  obtain ⟨ha, hb⟩ := IntOp.andi_eq_one.1 h0
  exact ⟨fun i => real_of_abs_lt (x0 i) (Host.reduce_andi_all _ _ _ _ _ ha i),
    fun i => real_of_abs_lt (x1 i) (Host.reduce_andi_all _ _ _ _ _ hb i)⟩

end Cert.Pre_finite_inputs.Decode

end
-- ==== Proof.lean ====
/-
  The kernel scales every row of `u` (of `v`) by a gate that is one where the row's score against the other array is
  positive and zero elsewhere, and so does the reference; the two differ in how they reach the score and the gate.

  Write `s[m, n] = ∑ d, u[m, d] * v[n, d]` within one batch. The reference forms `s`, sums it over `n` for the rows of `u`
  and over `m` for the rows of `v`, and takes `max (sign ·) 0`. The kernel never forms `s`: it multiplies each row of `u` with
  the column sums of `v`, `∑ d, u[m, d] * ∑ n, v[n, d]`, sums, and converts the bit of the comparison with zero. The gates
  are one function of the score on all of the extended reals. The scores are equal by moving a factor across a
  finite sum, which holds for real entries and fails at the infinities; this is the one place the precondition (every
  input entry finite) is used. Tiling, the merging and splitting of the batch axes around the region, and the
  order of summation change nothing at the ideal values.

  Both programs' results are therefore one function of the arguments, `gated4 u v` and `gated4 v u`: the kernel program's
  run ends at it (KernelRun), the reference's run ends at it for real entries (ReferenceValue), and the precondition
  gives real entries (RealInputs). The ideal pass rewrote nothing, so the kernel's idealization is its own text.
-/
import proofs.«178846_j28999619182851_2_alg».proof.Defs
import proofs.«178846_j28999619182851_2_alg».proof.Proof.Gen.Kernel
import proofs.«178846_j28999619182851_2_alg».proof.Proof.Gen.Kernel.Skeleton
import proofs.«178846_j28999619182851_2_alg».proof.Proof.Gen.Kernel.Launch
import proofs.«178846_j28999619182851_2_alg».proof.Proof.Gen.Kernel.Points
import proofs.«178846_j28999619182851_2_alg».proof.Proof.Gen.Kernel.Frame
import proofs.«178846_j28999619182851_2_alg».proof.Proof.Gen.KernelIdeal
import proofs.«178846_j28999619182851_2_alg».proof.Proof.Gen.KernelIdeal.Skeleton
import proofs.«178846_j28999619182851_2_alg».proof.Proof.Gen.KernelIdeal.Launch
import proofs.«178846_j28999619182851_2_alg».proof.Proof.Gen.KernelIdeal.Points
import proofs.«178846_j28999619182851_2_alg».proof.Proof.Gen.KernelIdeal.Frame
import proofs.«178846_j28999619182851_2_alg».proof.Proof.Gen.ReferenceIdeal
import proofs.«178846_j28999619182851_2_alg».proof.Proof.Gen.Pre_finite_inputs
import proofs.«178846_j28999619182851_2_alg».proof.Proof.Gen.ReferenceIdeal.Run
import proofs.«178846_j28999619182851_2_alg».proof.Proof.Gen.ReferenceIdeal.Read
import proofs.«178846_j28999619182851_2_alg».proof.Proof.KernelRun
import proofs.«178846_j28999619182851_2_alg».proof.Proof.ReferenceValue
import proofs.«178846_j28999619182851_2_alg».proof.Proof.RealInputs
import Idealize.ShloMosaic.Adequacy
import Idealize.ShloMosaic.Init

noncomputable section

namespace Cert.Proof

open Idealize.ShloMosaic Idealize.SL.Sem Cert.GateScale

/-- The word-level kernel program runs and keeps its arguments. -/
theorem frame_kernel : Cert.frame_Kernel (hKernel := Cert.Kernel.Gen.facts) (hPre_finite_inputs := Cert.Pre_finite_inputs.Gen.facts) :=
  fun m ρ _ => Cert.Kernel.Gen.frame m ρ

/-- The idealized kernel program runs and keeps its arguments. -/
theorem frame_kernelIdeal : Cert.frame_KernelIdeal (hKernelIdeal := Cert.KernelIdeal.Gen.facts) (hPre_finite_inputs := Cert.Pre_finite_inputs.Gen.facts) :=
  fun m ρ _ => Cert.KernelIdeal.Gen.frame m ρ

/-- The idealized reference runs and keeps its arguments: its run with the results dropped. -/
theorem frame_referenceIdeal : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2.2)
    (Cert.ReferenceIdeal.Value.run (F := Ideal) m ρ)

/-- From memories agreeing on the arguments, whose entries the precondition makes real, both idealized programs end
    with the first result at `gated4 u v` and the second at `gated4 v u`. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  refine ⟨_, _, Cert.KernelIdeal.Arrays.run m ρ, ?_⟩
  refine (θ_run Cert.ReferenceIdeal.defs _ _).mono (fun _ h c => ?_)
    (Cert.ReferenceIdeal.Value.run (F := Ideal) m' ρ')
  obtain ⟨h10, h12, ha0, ha1⟩ := h c
  obtain ⟨r0, r1⟩ := Cert.Pre_finite_inputs.Decode.real_entries _ _ (hpre c)
  rw [(hagree c).1, (hagree c).2] at h10 h12
  exact ⟨h10.trans (Cert.ReferenceIdeal.RefValue.first_result_eq _ _ r0 r1),
    h12.trans (Cert.ReferenceIdeal.RefValue.second_result_eq _ _ r0 r1), ha0, ha1⟩

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
